-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x8192 : Shape := ⟨2, ![8192, 8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192 .f32) (main_arg1 : FVec F S8192x8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192 : Shape := ⟨1, ![8192]⟩
abbrev S8192x8192 : Shape := ⟨2, ![8192, 8192]⟩
abbrev S_ : Shape := ⟨0, ![]⟩
abbrev S1 : Shape := ⟨1, ![1]⟩
abbrev S16x8x128 : Shape := ⟨3, ![16, 8, 128]⟩
abbrev S512x8192 : Shape := ⟨2, ![512, 8192]⟩
abbrev S512 : Shape := ⟨1, ![512]⟩
abbrev S1x8x128 : Shape := ⟨3, ![1, 8, 128]⟩
abbrev S512x2048 : Shape := ⟨2, ![512, 2048]⟩
abbrev S1x512 : Shape := ⟨2, ![1, 512]⟩
abbrev S1x1 : Shape := ⟨2, ![1, 1]⟩
abbrev S16x1x1 : Shape := ⟨3, ![16, 1, 1]⟩
abbrev S16 : Shape := ⟨1, ![16]⟩

abbrev nBuf : Space → Nat
  | .hbm => 26
  | .vmem => 6
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S16x8x128, .f32⟩
  | .hbm, ⟨21, _⟩ => ⟨S16x1x1, .f32⟩
  | .hbm, ⟨22, _⟩ => ⟨S16, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S512x8192, .f32⟩
  | .local _ .vmem, ⟨1, _⟩ => ⟨S512x8192, .f32⟩
  | .local _ .vmem, ⟨2, _⟩ => ⟨S512, .f32⟩
  | .local _ .vmem, ⟨3, _⟩ => ⟨S512, .f32⟩
  | .local _ .vmem, ⟨4, _⟩ => ⟨S1x8x128, .f32⟩
  | .local _ .vmem, ⟨5, _⟩ => ⟨S1x8x128, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v1 : BitVec 32 := Scalar.addi c0_i32 c4_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c2048_i32 : BitVec 32 := 2048#32
  let v12 : BitVec 32 := Scalar.muli arg4 c2048_i32
  v12
def k0_off1 (k0_t1 : Fin k0_t1_loop.trips) : Fin 2 → Nat :=
  let c0_5 : Index := 0#32
  let c0_i32 : BitVec 32 := 0#32
  let c1_i32 : BitVec 32 := 1#32
  let arg4 : BitVec 32 := Scf.iv c0_i32 c1_i32 k0_t1
  let c2048_i32 : BitVec 32 := 2048#32
  let v12 : BitVec 32 := Scalar.muli arg4 c2048_i32
  let v13 : BitVec 32 := v12
  let v14 : Index := Scalar.indexCast v13
  ![0, v14.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  bcast_S_S8192 : S_.BroadcastsInDim S8192 (![] : Fin 0 → Fin S8192.rank)
  h_S512x2048 : 0 < S512x2048.numel
  reduces_S512x2048_S512 : S512x2048.Reduces [1] S512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  reduces_S1x512_S1 : S1x512.Reduces [1] S1
  shapeCasts_S1_S1x1 : S1.ShapeCasts S1x1
  inpos_S1x1_p0_0 : ∀ a, (![0, 0] : Fin 2 → Nat) a < S1x1.size a
  inb_S1x8x128_S1x8x128_0_0_0 : ∀ a, (![0, 0, 0] : Fin 3 → Nat) a + S1x8x128.size a ≤ S1x8x128.size a
  h_S1x8x128 : 0 < S1x8x128.numel
  slices_S16x8x128_S16x1x1_0_0_0 : S16x8x128.Slices ![0, 0, 0] S16x1x1
  shapeCasts_S16x1x1_S16 : S16x1x1.ShapeCasts S16
  reducesTo_S16_S_d0 : S16.ReducesTo [0] S_
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S512x2048.size a ≤ S512x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S8192.size a
  hwx0_1 : ∀ i : grid0.Coords, EltTy.bits .f32 = 32 ∨ (Rect.block (s := S8192) S512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)

variable [Facts₀]

abbrev win0_0 : Pipeline.Window sig grid0 :=
  Pipeline.Window.ofSpec (Memref.whole main_arg1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192 : Shape := ⟨1, ![8192]⟩
abbrev S8192x8192 : Shape := ⟨2, ![8192, 8192]⟩
abbrev S_ : Shape := ⟨0, ![]⟩
abbrev S1 : Shape := ⟨1, ![1]⟩

abbrev nBuf : Space → Nat
  | .hbm => 27
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S_, .f32⟩
  | .hbm, ⟨11, _⟩ => ⟨S_, .f32⟩
  | .hbm, ⟨12, _⟩ => ⟨S1, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192x8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  bcast_S_S8192 : S_.BroadcastsInDim S8192 (![] : Fin 0 → Fin S8192.rank)
  reducesTo_S8192x8192_S8192_d1 : S8192x8192.ReducesTo [1] S8192

variable [Facts₀]

class Facts : Prop extends Facts₀ where

variable [Facts]
-- ==== Proof.Spec.lean ====
/-
  The value both programs compute, stated once over plain coordinates.

  With `D i` the squared softmax-Jacobian diagonal at row `i` and `W i j` the weight matrix, the quantity under the
  final square root is `∑ i, D i * ∑ j, W i j * W i j`.  The kernel reaches it in another grouping: the rows are cut
  into 16 consecutive runs of 512 (one per grid point), and each row's sum of squares is accumulated over 4 consecutive
  runs of 2048 lanes, starting from zero.  Both groupings are regroupings of a finite sum in a commutative monoid, so
  they hold on the extended reals with no finiteness assumption.
-/
import Idealize.ShloMosaic.PureOps.Ideal
import Idealize.ShloMosaic.Lib.ValueIdx
import Mathlib.Algebra.BigOperators.Fin

noncomputable section

namespace Cert.Spec

open scoped BigOperators

/-- A sum over `N = m * n` consecutive positions is the sum over `m` consecutive runs of the sums over each run's
    `n` positions: position `n * a + b` is place `b` of run `a`. -/
theorem sum_runs {M : Type*} [AddCommMonoid M] (m n N : ℕ) (h : m * n = N) (f : Fin N → M)
    (hlt : ∀ (a : Fin m) (b : Fin n), n * a.val + b.val < N) :
    ∑ i, f i = ∑ a : Fin m, ∑ b : Fin n, f ⟨n * a.val + b.val, hlt a b⟩ := by
  subst h
  rw [← finProdFinEquiv.sum_comp, Fintype.sum_prod_type]
  refine Finset.sum_congr rfl fun a _ => Finset.sum_congr rfl fun b _ => congrArg f (Fin.ext ?_)
  show b.val + n * a.val = n * a.val + b.val
  exact Nat.add_comm _ _

/-- A rank-one index is its one coordinate. -/
def idxEquiv1 {n : ℕ} : (⟨1, ![n]⟩ : Idealize.ShloMosaic.Shape).Idx ≃ Fin n where
  toFun j := j 0
  invFun := Idealize.ShloMosaic.ValueIdx.ix1
  left_inv j := (Idealize.ShloMosaic.ValueIdx.eq_ix1 j).symm
  right_inv _ := rfl

/-- A sum over the indices of a rank-one shape is the sum over its coordinate. -/
theorem sum_idx1 {M : Type*} [AddCommMonoid M] {n : ℕ} (f : (⟨1, ![n]⟩ : Idealize.ShloMosaic.Shape).Idx → M) :
    ∑ j, f j = ∑ i : Fin n, f (Idealize.ShloMosaic.ValueIdx.ix1 i) :=
  ((idxEquiv1 (n := n)).symm.sum_comp f).symm

/-- The sum of squares of one row. -/
def rowSq (W : Fin 8192 → Fin 8192 → EReal) (i : Fin 8192) : EReal := ∑ j : Fin 8192, W i j * W i j

/-- The quantity under the final square root: each row's sum of squares weighted by `D`. -/
def total (D : Fin 8192 → EReal) (W : Fin 8192 → Fin 8192 → EReal) : EReal := ∑ i : Fin 8192, D i * rowSq W i

/-- The squares of a row summed over lane run `k` (lanes `2048 * k` to `2048 * k + 2047`). -/
def chunkSq (g : Fin 8192 → EReal) (k : Fin 4) : EReal :=
  ∑ l : Fin 2048, g ⟨2048 * k.val + l.val, by have := k.isLt; have := l.isLt; omega⟩
    * g ⟨2048 * k.val + l.val, by have := k.isLt; have := l.isLt; omega⟩

/-- A row's sum of squares as the kernel accumulates it: from zero, one lane run after the other. -/
def rowAcc (g : Fin 8192 → EReal) : EReal := (((0 + chunkSq g 0) + chunkSq g 1) + chunkSq g 2) + chunkSq g 3

/-- Accumulating the four lane runs in order gives the row's whole sum of squares. -/
theorem rowAcc_eq (g : Fin 8192 → EReal) : rowAcc g = ∑ j : Fin 8192, g j * g j := by
  rw [sum_runs 4 2048 8192 rfl (fun j => g j * g j)
    (fun a b => by have := a.isLt; have := b.isLt; omega)]
  rw [Fin.sum_univ_four]
  simp only [rowAcc, chunkSq, zero_add]

/-- What grid point `b` leaves: the weighted row sums of the 512 rows of run `b`. -/
def partialSum (D : Fin 8192 → EReal) (W : Fin 8192 → Fin 8192 → EReal) (b : Fin 16) : EReal :=
  ∑ r : Fin 512, D ⟨512 * b.val + r.val, by have := b.isLt; have := r.isLt; omega⟩
    * rowSq W ⟨512 * b.val + r.val, by have := b.isLt; have := r.isLt; omega⟩

/-- The 16 partial sums add up to the total. -/
theorem sum_partialSum (D : Fin 8192 → EReal) (W : Fin 8192 → Fin 8192 → EReal) :
    ∑ b : Fin 16, partialSum D W b = total D W := by
  unfold total partialSum
  rw [sum_runs 16 512 8192 rfl (fun i => D i * rowSq W i)
    (fun a b => by have := a.isLt; have := b.isLt; omega)]

end Cert.Spec

end
-- ==== Proof.BodyValue.lean ====
/-
  What the kernel body computes at one grid point, as a function of the two blocks it is handed.

  The body is handed a 512 × 8192 block `x0` of the weight matrix and the matching 512 entries `x1` of the squared
  diagonal.  Its counted loop carries a 512-vector: starting from zero, trip `k` adds to row `r`'s entry the sum of
  the squares of `x0 r` over lanes `2048 k … 2048 k + 2047`.  After the four trips row `r`'s entry is the row's
  sum of squares accumulated run by run (`Cert.Spec.rowAcc`); the body multiplies it by `x1 r`, sums over the 512
  rows, and stores that one number at every position of its 1 × 8 × 128 output block.
-/
import proofs.«165821_j41944650613016_2_alg».proof.Proof.Gen.KernelIdeal.Frame
import proofs.«165821_j41944650613016_2_alg».proof.Proof.Spec
import Idealize.ShloMosaic.Lib.Pipeline.Value
import Idealize.ShloMosaic.Lib.ValueIdx
import Idealize.ShloMosaic.Lib.ValueLayout
import Idealize.ShloMosaic.Lib.WholeRead
import Idealize.ShloMosaic.PureOps.Ideal.Laws

noncomputable section

namespace Cert.KernelIdeal.BodyValue

open Idealize.ShloMosaic Idealize.ShloMosaic.TcCoe Idealize.ShloMosaic.ValueIdx Idealize.SL.Sem
open Cert.KernelIdeal Cert.KernelIdeal.Gen

/-! ## One trip of the loop, and the four trips in order -/

section AnyF
variable {F : FTy → Type} [FloatOps F]

/-- The lanes trip `k` loads: the 512 × 2048 rectangle of the block at column offset `2048 k`. -/
def chunk (arg1 : Memref sig .tc .vmem S512x8192 .f32) (X : BufTy.Contents (Elt F) arg1.view.ty)
    (k : Fin k0_t1_loop.trips) : Vec F S512x2048 .f32 :=
  View.readAt (Elt F) arg1.view (Rect.unit (s := S512x8192) (k0_off1 k) S512x2048.size (k0_off1_inb k)).toLoadRect X

/-- One trip yields the carried vector plus the row sums of the squares of the lanes it loaded. -/
theorem trip_eq (𝒱 : Variants) (c : Dev nD) (bd : Option 𝒱.V) (i : grid0.Coords)
    (arg1 : Memref sig .tc .vmem S512x8192 .f32) (harg1 : arg1.IsWhole) (arg2 : Memref sig .tc .vmem S512 .f32)
    (harg2 : arg2.IsWhole) (arg3 : Memref sig .tc .vmem S1x8x128 .f32) (harg3 : arg3.IsWhole)
    (X : BufTy.Contents (Elt F) arg1.view.ty) (k : Fin k0_t1_loop.trips) (acc : FVec F S512 .f32) :
    tripR_k0_t1 (F := F) 𝒱 c bd i arg1 harg1 arg2 harg2 arg3 harg3 X k acc = k0_pay2 acc (chunk arg1 X k) := by
  unfold tripR_k0_t1 trip_k0_t1
  rfl

/-- The loop makes four trips. -/
theorem trips_eq : k0_t1_loop.trips = 4 := by decide

end AnyF

/-! ## The payloads read at an index, at the ideal values -/

/-- Lane `l` of row `r`: the index the lane sum of row `r` visits at its `l`-th step. -/
theorem lift_row_lane (r : Fin 512) (l : Fin 2048) :
    reduces_S512x2048_S512.lift (ix1 r) l = ix2 r l := by
  funext a
  apply Fin.ext
  match a with
  | ⟨0, _⟩ => rfl
  | ⟨1, _⟩ => rfl

/-- The loop starts from the zero vector. -/
theorem pay1_apply (r : Fin 512) : k0_pay1 (F := Ideal) (ix1 r) = 0 := by
  unfold k0_pay1
  show Ideal.ofBits .f32 0x00000000#32 = 0
  exact Ideal.ofBits_zero_f32

/-- One trip's yield at row `r`: the carried entry plus the sum of the squares of the row's loaded lanes. -/
theorem pay2_apply (acc : FVec Ideal S512 .f32) (v : Vec Ideal S512x2048 .f32) (r : Fin 512) :
    k0_pay2 (F := Ideal) acc v (ix1 r) = acc (ix1 r) + ∑ l : Fin 2048, v (ix2 r l) * v (ix2 r l) := by
  unfold k0_pay2
  refine congrArg (acc (ix1 r) + ·) ?_
  refine (Ideal.multiReduction_add_single (mulf v v) 0x00000000#32 reduces_S512x2048_S512 (.inl rfl) rfl (ix1 r)).trans ?_
  refine Finset.sum_congr rfl fun l _ => ?_
  rw [lift_row_lane r l]
  rfl

/-- Row `k` of the one-row view: the index the sum over the 512 rows visits at its `k`-th step. -/
theorem lift_unit_row (k : Fin 512) :
    reduces_S1x512_S1.lift (ix1 (0 : Fin 1)) k = ix2 (0 : Fin 1) k := by
  funext a
  apply Fin.ext
  match a with
  | ⟨0, _⟩ => rfl
  | ⟨1, _⟩ => rfl

/-- The stored value, at every position of the output block: the sum over the 512 rows of the diagonal entry times the
    carried row entry. -/
theorem pay3_apply (v2 : FVec Ideal S512 .f32) (v3 : Vec Ideal S512 .f32) (y : S1x8x128.Idx) :
    k0_pay3 (F := Ideal) v2 v3 y = ∑ r : Fin 512, v3 (ix1 r) * v2 (ix1 r) := by
  unfold k0_pay3
  show extractAt ![0, 0] (shapeCast S1x1 (multiReduction .add [1] S1
      (shapeCast S1x512 (mulf (shapeCast S512 v3 shapeCasts_S512_S512) v2) shapeCasts_S512_S1x512)
      0x00000000#32 reduces_S1x512_S1 (.inl rfl) rfl) shapeCasts_S1_S1x1) inpos_S1x1_p0_0 = _
  have e0 : (fun a => (⟨(![0, 0] : Fin 2 → Nat) a, inpos_S1x1_p0_0 a⟩ : Fin (S1x1.size a)))
      = ix2 (0 : Fin 1) (0 : Fin 1) := by
    funext a
    match a with
    | ⟨0, _⟩ => rfl
    | ⟨1, _⟩ => rfl
  unfold extractAt
  rw [e0]
  refine (shapeCast_a_1a_apply _ shapeCasts_S1_S1x1 0 0).trans ?_
  refine (Ideal.multiReduction_add_single _ 0x00000000#32 reduces_S1x512_S1 (.inl rfl) rfl (ix1 0)).trans ?_
  refine Finset.sum_congr rfl fun k _ => ?_
  rw [lift_unit_row k]
  refine (shapeCast_a_1a_apply _ shapeCasts_S512_S1x512 0 k).trans ?_
  rw [shapeCast_self]
  rfl

/-! ## The loop's result and the body's output -/

/-- Trip `k`'s loaded lanes, read through the staging buffer holding the block `x0`: lane `l` of row `r` is the
    block's entry at row `r`, column `2048 k + l`. -/
theorem chunk_apply (arg1 : Memref sig .tc .vmem S512x8192 .f32) (harg1 : arg1.IsWhole) (x0 : Vec Ideal S512x8192 .f32)
    (k : Fin k0_t1_loop.trips) (r : Fin 512) (l : Fin 2048) (j : Fin 8192) (hj : j.val = 2048 * k.val + l.val) :
    chunk (F := Ideal) arg1 (harg1.unread x0) k (ix2 r l) = x0 (ix2 r j) := by
  unfold chunk
  refine (harg1.readAt_unread x0
    (Rect.unit (s := S512x8192) (k0_off1 k) S512x2048.size (k0_off1_inb k)).toLoadRect (ix2 r l)).trans (congrArg x0 ?_)
  funext a
  apply Fin.ext
  match a with
  | ⟨0, _⟩ =>
    show (k0_off1 k) 0 + 1 * r.val = r.val
    rw [k0_off1_eq k]
    show 0 + 1 * r.val = r.val
    omega
  | ⟨1, _⟩ =>
    show (k0_off1 k) 1 + 1 * l.val = j.val
    rw [k0_off1_eq k, hj]
    show 2048 * k.val + 1 * l.val = 2048 * k.val + l.val
    omega

section Loop
variable (𝒱 : Variants) (c : Dev nD) (bd : Option 𝒱.V) (i : grid0.Coords)
  (arg1 : Memref sig .tc .vmem S512x8192 .f32) (harg1 : arg1.IsWhole) (arg2 : Memref sig .tc .vmem S512 .f32)
  (harg2 : arg2.IsWhole) (arg3 : Memref sig .tc .vmem S1x8x128 .f32) (harg3 : arg3.IsWhole)
  (x0 : Vec Ideal S512x8192 .f32)

/-- The carried vector before trip `n`, the staging buffer holding the block `x0`. -/
abbrev carried (n : ℕ) : FVec Ideal S512 .f32 :=
  st_k0_t1 (F := Ideal) 𝒱 c bd i arg1 harg1 arg2 harg2 arg3 harg3 (harg1.unread x0) k0_pay1 n

/-- Trip `n` adds to row `r`'s entry the squares of the row over lane run `n`. -/
theorem carried_succ (n : ℕ) (hn : n < k0_t1_loop.trips) (k : Fin 4) (hk : k.val = n) (r : Fin 512) :
    carried 𝒱 c bd i arg1 harg1 arg2 harg2 arg3 harg3 x0 (n + 1) (ix1 r)
      = carried 𝒱 c bd i arg1 harg1 arg2 harg2 arg3 harg3 x0 n (ix1 r)
        + Cert.Spec.chunkSq (fun j => x0 (ix2 r j)) k := by
  unfold carried
  rw [show n + 1 = (⟨n, hn⟩ : Fin k0_t1_loop.trips).val + 1 from rfl, st_k0_t1_succ, trip_eq, pay2_apply]
  refine congrArg (_ + ·) ?_
  unfold Cert.Spec.chunkSq
  refine Finset.sum_congr rfl fun l _ => ?_
  rw [chunk_apply arg1 harg1 x0 ⟨n, hn⟩ r l ⟨2048 * k.val + l.val, by have := k.isLt; have := l.isLt; omega⟩
    (by show 2048 * k.val + l.val = 2048 * n + l.val; rw [hk])]

/-- After the four trips row `r`'s entry is the row's sum of squares accumulated run by run. -/
theorem carried_four (r : Fin 512) :
    carried 𝒱 c bd i arg1 harg1 arg2 harg2 arg3 harg3 x0 4 (ix1 r) = Cert.Spec.rowAcc (fun j => x0 (ix2 r j)) := by
  have h4 : (4 : ℕ) = k0_t1_loop.trips := trips_eq.symm
  have s0 := carried_succ 𝒱 c bd i arg1 harg1 arg2 harg2 arg3 harg3 x0 0 (by omega) 0 rfl r
  have s1 := carried_succ 𝒱 c bd i arg1 harg1 arg2 harg2 arg3 harg3 x0 1 (by omega) 1 rfl r
  have s2 := carried_succ 𝒱 c bd i arg1 harg1 arg2 harg2 arg3 harg3 x0 2 (by omega) 2 rfl r
  have s3 := carried_succ 𝒱 c bd i arg1 harg1 arg2 harg2 arg3 harg3 x0 3 (by omega) 3 rfl r
  have z : carried 𝒱 c bd i arg1 harg1 arg2 harg2 arg3 harg3 x0 0 (ix1 r) = 0 := pay1_apply r
  unfold Cert.Spec.rowAcc
  rw [← z]
  exact s3.trans (congrArg (· + _) (s2.trans (congrArg (· + _) (s1.trans (congrArg (· + _) s0)))))

end Loop

/-- What the body leaves at every position of its output block, handed the weight block `x0` and the diagonal
    entries `x1`: the sum over the 512 rows of the diagonal entry times the row's accumulated sum of squares. -/
theorem out_apply (c : Dev nD) (i : grid0.Coords)
    (arg1 : Memref sig .tc .vmem S512x8192 .f32) (harg1 : arg1.IsWhole) (arg2 : Memref sig .tc .vmem S512 .f32)
    (harg2 : arg2.IsWhole) (arg3 : Memref sig .tc .vmem S1x8x128 .f32) (harg3 : arg3.IsWhole)
    (x0 : Vec Ideal S512x8192 .f32) (x1 : Vec Ideal S512 .f32) (y : S1x8x128.Idx) :
    out0_A_2 (F := Ideal) c i arg1 harg1 arg2 harg2 arg3 harg3 x0 x1 y
      = ∑ r : Fin 512, x1 (ix1 r) * Cert.Spec.rowAcc (fun j => x0 (ix2 r j)) := by
  unfold out0_A_2
  rw [View.read_writes_eq_canon _ _ _ (cover0_A_2 c i arg1 harg1 arg2 harg2 arg3 harg3 x0 x1)]
  unfold kernelRun0_A
  dsimp only
  have hz : (![0, 0, 0] : Fin 3 → Nat) = fun _ => 0 := by
    funext a
    match a with
    | ⟨0, _⟩ => rfl
    | ⟨1, _⟩ => rfl
    | ⟨2, _⟩ => rfl
  rw [View.canon_unit_zero hz, pay3_apply]
  refine Finset.sum_congr rfl fun r _ => ?_
  have ht : Scf.trips (0#32) (Scalar.addi 0#32 4#32) 1#32 = 4 := trips_eq
  rw [ht]
  have e1 : View.readAt (Elt Ideal) arg2.view (Rect.unit (s := S512) ![0] S512.size inb_S512_S512_0).toLoadRect
      (harg2.unread x1) (ix1 r) = x1 (ix1 r) := by
    refine (harg2.readAt_unread x1 (Rect.unit (s := S512) ![0] S512.size inb_S512_S512_0).toLoadRect (ix1 r)).trans
      (congrArg x1 ?_)
    funext a
    apply Fin.ext
    match a with
    | ⟨0, _⟩ =>
      show 0 + 1 * r.val = r.val
      omega
  rw [e1]
  exact congrArg (x1 (ix1 r) * ·) (carried_four Variants.none c none i arg1 harg1 arg2 harg2 arg3 harg3 x0 r)

end Cert.KernelIdeal.BodyValue

end
-- ==== Proof.ArrayValue.lean ====
/-
  From what each grid point writes back to the whole partial-sum array.

  Grid point `t` is handed rows `512 t … 512 t + 511` of the weight matrix and the same entries of the squared
  diagonal, and writes back block `t` of the 16 × 8 × 128 result array.  By the body's value that block holds, at
  every position, the weighted row sums of those 512 rows (`Cert.Spec.partialSum` at run `t`); the 16 blocks tile the
  array, so after the run the array holds at `(b, s, l)` the partial sum of run `b`.
-/
import proofs.«165821_j41944650613016_2_alg».proof.Proof.BodyValue

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

/-- The squared diagonal as the region finds it, by row. -/
def D (c : Dev nD) : Fin 8192 → EReal := fun i => (V m c main_v13 : S8192.Idx → EReal) (ix1 i)

/-- The weight matrix as the region finds it, by row and column. -/
def W (c : Dev nD) : Fin 8192 → Fin 8192 → EReal := fun i j => (V m c main_arg1 : S8192x8192.Idx → EReal) (ix2 i j)

/-- The partial-sum array: at `(b, s, l)` the weighted row sums of row run `b`. -/
def G (c : Dev nD) : S16x8x128.Idx → EReal := fun i => Cert.Spec.partialSum (D m c) (W m c) (i 0 : Fin 16)

/-- The printed index maps, decided over the grid: every window's block index on its leading axis is the point's
    number, and zero on the other axes. -/
theorem idx_facts : ∀ t : Fin cfg0.N, win0_0.index t (0 : Fin 2) = t.val ∧ win0_0.index t (1 : Fin 2) = 0
    ∧ win0_1.index t (0 : Fin 1) = t.val
    ∧ win0_2.index t (0 : Fin 3) = t.val ∧ win0_2.index t (1 : Fin 3) = 0 ∧ win0_2.index t (2 : Fin 3) = 0 :=
  (by decide +kernel : ∀ t : Fin grid0.N, _)

/-- The weight window's block at point `t` is rows `512 t … 512 t + 511` of the matrix. -/
theorem iblk0_apply (c : Dev nD) (t : Fin cfg0.N) (r : Fin 512) (j : Fin 8192) (i : Fin 8192)
    (hi : i.val = 512 * t.val + r.val) :
    (iblk m c 0 t : Vec Ideal S512x8192 .f32) (ix2 r j) = W m c i j := by
  obtain ⟨e0, e1, -, -, -, -⟩ := idx_facts t
  unfold iblk W
  rw [View.read_apply]
  show V m c main_arg1 _ = V m c main_arg1 _
  refine congrArg (V m c main_arg1) ?_
  funext a
  apply Fin.ext
  match a with
  | ⟨0, _⟩ =>
    show win0_0.index t (0 : Fin 2) * 512 + 1 * r.val = i.val
    rw [e0, hi]; omega
  | ⟨1, _⟩ =>
    show win0_0.index t (1 : Fin 2) * 8192 + 1 * j.val = j.val
    rw [e1]; omega

/-- The diagonal window's block at point `t` is entries `512 t … 512 t + 511`. -/
theorem iblk1_apply (c : Dev nD) (t : Fin cfg0.N) (r : Fin 512) (i : Fin 8192)
    (hi : i.val = 512 * t.val + r.val) :
    (iblk m c 1 t : Vec Ideal S512 .f32) (ix1 r) = D m c i := by
  obtain ⟨-, -, e2, -, -, -⟩ := idx_facts t
  unfold iblk D
  rw [View.read_apply]
  show V m c main_v13 _ = V m c main_v13 _
  refine congrArg (V m c main_v13) ?_
  funext a
  apply Fin.ext
  match a with
  | ⟨0, _⟩ =>
    show win0_1.index t (0 : Fin 1) * 512 + 1 * r.val = i.val
    rw [e2, hi]; omega

/-- What point `t` writes back is block `t` of the partial-sum array. -/
theorem flushed_eq (c : Dev nD) (t : Fin cfg0.N) :
    (dats m 0 c).flushed 2 t = ((cfg0.win 2).blk t).view.read (Elt Ideal) (G m c) := by
  obtain ⟨-, -, -, e3, -, -⟩ := idx_facts t
  have hN : cfg0.N = 16 := N_0
  have ht : t.val < 16 := hN ▸ t.isLt
  show (cfg0.win 2).cut (grid0.coords t) ((dats m 0 c).after 2 t) = _
  rw [after0_2]
  unfold outsAt0
  funext y
  show out0_A_2 c (grid0.coords t) (ms0_0 t) (hs0_0 t) (ms0_1 t) (hs0_1 t) (ms0_2 t) (hs0_2 t) (iblk m c 0 t) (iblk m c 1 t) y
    = G m c (((cfg0.win 2).blk t).view.emb y)
  rw [BodyValue.out_apply]
  have hb : (((cfg0.win 2).blk t).view.emb y (0 : Fin 3) : Fin 16) = ⟨t.val, ht⟩ := by
    apply Fin.ext
    show win0_2.index t (0 : Fin 3) * 1 + 1 * (y 0).val = t.val
    have hy : (y 0).val < 1 := (y 0).isLt
    rw [e3]; omega
  unfold G
  rw [hb]
  unfold Cert.Spec.partialSum
  refine Finset.sum_congr rfl fun r _ => ?_
  rw [Cert.Spec.rowAcc_eq]
  have hi : 512 * t.val + r.val < 8192 := by have := r.isLt; omega
  rw [iblk1_apply m c t r ⟨512 * t.val + r.val, hi⟩ rfl]
  refine congrArg (D m c _ * ·) ?_
  unfold Cert.Spec.rowSq
  refine Finset.sum_congr rfl fun j _ => ?_
  rw [iblk0_apply m c t r j ⟨512 * t.val + r.val, hi⟩ rfl]

/-- An index of the array is in point `t`'s block iff each coordinate is in the block's range on its axis. -/
theorem mem_blk (t : Fin cfg0.N) (i : S16x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v14).slice (win0_2.rect t)).set ↔ _
  rw [View.set_slice_whole, Rect.mem_set_unit]
  exact Iff.rfl

/-- Every index of the array lies in the block of the point numbered by its leading coordinate. -/
theorem cover (i : S16x8x128.Idx) :
    ∃ t : Fin cfg0.N, (cfg0.win 2).flush t = true ∧ i ∈ ((cfg0.win 2).blk t).view.set := by
  have hN : cfg0.N = 16 := N_0
  have h0 : (i 0).val < 16 := (i 0).isLt
  have h1 : (i 1).val < 8 := (i 1).isLt
  have h2 : (i 2).val < 128 := (i 2).isLt
  refine ⟨⟨(i 0).val, by rw [hN]; exact h0⟩, flush0_2 _, ?_⟩
  obtain ⟨-, -, -, e3, e4, e5⟩ := idx_facts ⟨(i 0).val, by rw [hN]; exact h0⟩
  rw [mem_blk]
  intro a
  match a with
  | ⟨0, _⟩ =>
    show win0_2.index _ (0 : Fin 3) * 1 ≤ (i 0).val ∧ (i 0).val < win0_2.index _ (0 : Fin 3) * 1 + 1
    rw [e3]
    show (i 0).val * 1 ≤ (i 0).val ∧ (i 0).val < (i 0).val * 1 + 1
    omega
  | ⟨1, _⟩ =>
    show win0_2.index _ (1 : Fin 3) * 8 ≤ (i 1).val ∧ (i 1).val < win0_2.index _ (1 : Fin 3) * 8 + 8
    rw [e4]; omega
  | ⟨2, _⟩ =>
    show win0_2.index _ (2 : Fin 3) * 128 ≤ (i 2).val ∧ (i 2).val < win0_2.index _ (2 : Fin 3) * 128 + 128
    rw [e5]; omega

/-- After the run the result array of the kernel holds the partial sums. -/
theorem final (c : Dev nD) : (dats m 0 c).arrAt 2 cfg0.N = G m c :=
  (dats m 0 c).arrAt_eq_of_cover 2 (G m c) (fun t _ => flushed_eq m c t) (cover)

end Cert.KernelIdeal.ArrayValue

end
-- ==== Proof.RefValue.lean ====
/-
  The reference's result as the square root of the weighted sum of row sums of squares.

  Read one operation at a time, the reference computes `sqrt (0 + ∑ i, (d i * d i) * (0 + ∑ j, w i j * w i j))`,
  where `d` is the softmax-Jacobian diagonal of `x`.  The two zeros are the sums' initial values and drop out; the
  squared diagonal is kept as the one stage that produces it, never opened.
-/
import proofs.«165821_j41944650613016_2_alg».proof.Proof.Gen.ReferenceIdeal.Read
import proofs.«165821_j41944650613016_2_alg».proof.Proof.Spec
import Idealize.ShloMosaic.Lib.ValueIdx
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.Read

/-- The squared diagonal, by row: the reference's stage that produces it, as a function of `x`. -/
def dsq (x0 : (⟨S8192, .f32⟩ : BufTy).Contents (Elt Ideal)) : Fin 8192 → EReal :=
  fun i => val_main_v15 (F := Ideal) x0 (ix1 i)

/-- A row's sum of squares, as the reference's stages compute it. -/
theorem rowSq_apply (x1 : (⟨S8192x8192, .f32⟩ : BufTy).Contents (Elt Ideal)) (i : Fin 8192) :
    val_main_v14 (F := Ideal) x1 (ix1 i) = Cert.Spec.rowSq (fun a b => x1 (ix2 a b)) i := by
  rw [val_main_v14_apply]
  have hz : ∀ j, val_main_cst_3 (F := Ideal) j = 0 := fun _ => Ideal.ofBits_zero_f32
  rw [hz, zero_add]
  unfold Cert.Spec.rowSq
  refine Finset.sum_congr rfl fun k _ => ?_
  have hk : idx_main_v14 (ix1 i) k = ix2 i k := by
    funext a
    apply Fin.ext
    match a with
    | ⟨0, _⟩ => rfl
    | ⟨1, _⟩ => rfl
  rw [hk]
  rfl

/-- The reference's result: the square root of the total. -/
theorem result_apply (x0 : (⟨S8192, .f32⟩ : BufTy).Contents (Elt Ideal))
    (x1 : (⟨S8192x8192, .f32⟩ : BufTy).Contents (Elt Ideal)) (i : S_.Idx) :
    val_main_v18 (F := Ideal) x0 x1 i
      = FloatOps.hostUnary (F := Ideal) (φ := .f32) .sqrt (Cert.Spec.total (dsq x0) (fun a b => x1 (ix2 a b))) := by
  rw [val_main_v18_apply, val_main_v17_apply]
  have hz : ∀ j, val_main_cst_4 (F := Ideal) j = 0 := fun _ => Ideal.ofBits_zero_f32
  rw [hz, zero_add, Cert.Spec.sum_idx1]
  refine congrArg (FloatOps.hostUnary (F := Ideal) (φ := .f32) .sqrt) ?_
  unfold Cert.Spec.total
  refine Finset.sum_congr rfl fun r _ => ?_
  rw [val_main_v16_apply, rowSq_apply]
  rfl

end Cert.ReferenceIdeal.RefValue

end
-- ==== Proof.KernelValue.lean ====
/-
  The kernel program's run, restated at the closed value of its result.

  Around the grid the program does two things on the host.  Before it: the softmax of `x`, the Jacobian diagonal
  `s (1 - s)` and its square — the same chain of operations the reference applies to `x`, so the squared diagonal the
  region finds is the reference's own stage at `x`, and the chain is never opened.  After it: position `(b, 0, 0)`
  of each of the 16 blocks is read out, the 16 numbers are summed from zero, and the square root taken.  The 16
  numbers are the partial sums of the 16 row runs, which add up to the total over all rows.
-/
import proofs.«165821_j41944650613016_2_alg».proof.Proof.ArrayValue
import proofs.«165821_j41944650613016_2_alg».proof.Proof.RefValue
import Idealize.ShloMosaic.Lib.StableHlo.Run

noncomputable section

namespace Cert.KernelIdeal.KernelValue

open Idealize.ShloMosaic Idealize.ShloMosaic.TcCoe Idealize.ShloMosaic.ValueIdx Idealize.SL.Sem
open Idealize.ShloMosaic.StableHlo
open Cert.KernelIdeal Cert.KernelIdeal.Gen Cert.KernelIdeal.ArrayValue

variable (m : (ℓ : Loc nD τ sig) → Buf (Elt Ideal) ℓ) (ρ : Dev nD → PrngReg)

/-! ## Before the grid -/

/-- The squared diagonal the region finds is the reference's stage for it, at the launched `x`: the two programs
    apply the same operations, in the same order, with the same constants. -/
theorem V_dsq (c : Dev nD) :
    (V m c main_v13 : S8192.Idx → EReal)
      = Cert.ReferenceIdeal.Read.val_main_v15 (F := Ideal) (m ((c : Thread nD τ).loc main_arg0)) := by
  show StableHlo.after hostOps0 (fun b => m (c, b)) (Proc.devRef .tc main_v13) = _
  after_results
  rfl

/-- By row, it is the reference's squared diagonal of `x`. -/
theorem D_eq (c : Dev nD) : D m c = Cert.ReferenceIdeal.RefValue.dsq (m ((c : Thread nD τ).loc main_arg0)) := by
  unfold D Cert.ReferenceIdeal.RefValue.dsq
  rw [V_dsq]

/-- The weight matrix the region finds is the launched one. -/
theorem W_eq (c : Dev nD) :
    W m c = fun a b => (m ((c : Thread nD τ).loc main_arg1) : S8192x8192.Idx → EReal) (ix2 a b) := by
  unfold W
  rw [V_main_arg1]

/-! ## After the grid -/

/-- The host's sum of a 16-vector from zero is the sum of its 16 entries. -/
theorem reduce16 (y : FVec Ideal S16 .f32) (i : S_.Idx) :
    Host.reduceAdd (F := Ideal) y (constant S_ .f32 0x00000000#32) reducesTo_S16_S_d0 h_S_ i = ∑ b : Fin 16, y (ix1 b) := by
  simp only [Host.reduceAdd, Ideal.hostReduceAdd_def]
  rw [Ideal.hostReduceAdd_total reducesTo_S16_S_d0 (fun b => b.elim0) y _ i, Cert.Spec.sum_idx1]
  show Ideal.ofBits .f32 0x00000000#32 + _ = _
  rw [Ideal.ofBits_zero_f32, zero_add]

/-- Entry `b` of the 16-vector read out of an array of blocks is the array at `(b, 0, 0)`. -/
theorem pick_apply (A : S16x8x128.Idx → EReal) (b : Fin 16) :
    shapeCast S16 (extractStridedSlice S16x1x1 ![0, 0, 0] A slices_S16x8x128_S16x1x1_0_0_0) shapeCasts_S16x1x1_S16 (ix1 b)
      = A (ix3 b (0 : Fin 8) (0 : Fin 128)) := by
  refine (shapeCast_apply _ shapeCasts_S16x1x1_S16 (ix1 b) (ix3 b (0 : Fin 1) (0 : Fin 1)) ?_).trans ?_
  · rw [Shape.rowMajor_val_three, Shape.rowMajor_val_one]
    show (b.val * 1 + 0) * 1 + 0 = b.val
    omega
  · refine extractStridedSlice_apply _ A slices_S16x8x128_S16x1x1_0_0_0 _ (ix3 b (0 : Fin 8) (0 : Fin 128)) fun a => ?_
    match a with
    | ⟨0, _⟩ => show b.val = 0 + b.val; omega
    | ⟨1, _⟩ => rfl
    | ⟨2, _⟩ => rfl

/-- The program's result after the host tail: the square root of the total. -/
theorem tail_value (c : Dev nD) :
    Pipeline.afterTail₀ cfgs (dats m) 0 (V0 m) [hostOps1] c main_v18
      = fun _ => FloatOps.hostUnary (F := Ideal) (φ := .f32) .sqrt (Cert.Spec.total (D m c) (W m c)) := by
  unfold Pipeline.afterTail₀
  show StableHlo.after hostOps1 _ (Proc.devRef .tc main_v18) = _
  after_results
  have hA : Pipeline.withArrays (cfgs 0).spec c (V0 m c) (fun w => (dats m 0 c).arrAt w (cfgs 0).N)
      (Proc.devRef .tc main_v14) = G m c :=
    (Pipeline.withArrays_arr spec0 launch0.win.arr_inj c _ _ 2).trans (final m c)
  rw [hA]
  refine funext fun i => congrArg (FloatOps.hostUnary (F := Ideal) (φ := .f32) .sqrt) ?_
  refine (reduce16 _ i).trans ?_
  rw [← Cert.Spec.sum_partialSum]
  refine Finset.sum_congr rfl fun b _ => ?_
  show shapeCast S16 (extractStridedSlice S16x1x1 ![0, 0, 0] (G m c) slices_S16x8x128_S16x1x1_0_0_0)
    shapeCasts_S16x1x1_S16 (ix1 b) = _
  rw [pick_apply]
  rfl

/-! ## The run -/

/-- The closed value of the result, as a function of the launched arrays. -/
def value (x : S8192.Idx → EReal) (w : S8192x8192.Idx → EReal) : S_.Idx → EReal :=
  fun _ => FloatOps.hostUnary (F := Ideal) (φ := .f32) .sqrt
    (Cert.Spec.total (Cert.ReferenceIdeal.RefValue.dsq x) (fun a b => w (ix2 a b)))

/-- Every weakly fair execution of the kernel program terminates with the result at the closed value of the launched
    arrays, and the arrays unchanged. -/
theorem run : θ_run defs (onTc (τ := τ) (main (F := Ideal))) ⟨m, fun _ => 0, ρ⟩ fun r => ∀ c : Dev nD,
      r.2.mem ((c.tc : Thread nD τ).loc main_v18)
        = value (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v18 (Pipeline.mem_restRefs_of main_v18 (by decide) (by decide))).trans
        ((tail_value m c).trans (by unfold value; rw [D_eq, W_eq]; rfl)),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelIdeal.KernelValue

end
-- ==== Proof.lean ====
/-
  The kernel computes the Frobenius norm of `diag(d) · w`, with `d = s (1 - s)` the diagonal of the softmax Jacobian
  at `x`, as `sqrt (∑ i, d i ^ 2 * ∑ j, w i j ^ 2)`, and so does the reference.

  The two programs differ only in how the double sum is grouped.  The reference sums each row's squares in one
  pass and then sums the 8192 weighted rows.  The kernel cuts the rows into 16 runs of 512, one per grid point; at a
  point it accumulates each row's squares over 4 runs of 2048 lanes starting from zero, weights the 512 row sums and
  adds them, and writes the one number over its output block; the host then picks one entry per block, adds the 16
  numbers from zero and takes the square root.  Regrouping a finite sum is valid in any commutative monoid, so the two
  values are equal on the extended reals for every input, finite or not: the precondition is not used.  The squared
  diagonal is produced by the same host operations in both programs and is carried as one function of `x`.

  The idealization rewrote no operation, so the kernel's idealized text is its own text read over the extended
  reals and nothing is owed for it.
-/
import proofs.«165821_j41944650613016_2_alg».proof.Defs
import proofs.«165821_j41944650613016_2_alg».proof.Proof.Gen.Kernel
import proofs.«165821_j41944650613016_2_alg».proof.Proof.Gen.Kernel.Skeleton
import proofs.«165821_j41944650613016_2_alg».proof.Proof.Gen.Kernel.Loops
import proofs.«165821_j41944650613016_2_alg».proof.Proof.Gen.Kernel.Launch
import proofs.«165821_j41944650613016_2_alg».proof.Proof.Gen.Kernel.Points
import proofs.«165821_j41944650613016_2_alg».proof.Proof.Gen.Kernel.Frame
import proofs.«165821_j41944650613016_2_alg».proof.Proof.Gen.KernelIdeal
import proofs.«165821_j41944650613016_2_alg».proof.Proof.Gen.KernelIdeal.Skeleton
import proofs.«165821_j41944650613016_2_alg».proof.Proof.Gen.KernelIdeal.Loops
import proofs.«165821_j41944650613016_2_alg».proof.Proof.Gen.KernelIdeal.Launch
import proofs.«165821_j41944650613016_2_alg».proof.Proof.Gen.KernelIdeal.Points
import proofs.«165821_j41944650613016_2_alg».proof.Proof.Gen.KernelIdeal.Frame
import proofs.«165821_j41944650613016_2_alg».proof.Proof.Gen.ReferenceIdeal
import proofs.«165821_j41944650613016_2_alg».proof.Proof.Gen.ReferenceIdeal.Run
import proofs.«165821_j41944650613016_2_alg».proof.Proof.Gen.ReferenceIdeal.Read
import proofs.«165821_j41944650613016_2_alg».proof.Proof.Gen.Pre_finite_inputs
import proofs.«165821_j41944650613016_2_alg».proof.Proof.KernelValue
import proofs.«165821_j41944650613016_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference has no kernel: its run, with the result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten by the idealization. -/
theorem preserves : Cert.preserves_Kernel_KernelIdeal := trivial

/-- Both programs end with the result at `sqrt (∑ i, d i ^ 2 * ∑ j, w i j ^ 2)` of the launched arrays: the kernel by
    its grouped sums, the reference by its stages read one at a time. -/
theorem algebraic : Cert.algebraic_KernelIdeal_ReferenceIdeal := by
  intro m ρ m' ρ' _ hagree
  refine ⟨fun c => Cert.KernelIdeal.KernelValue.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2]
  funext i
  exact Cert.ReferenceIdeal.RefValue.result_apply _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
